-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000 : Shape := ⟨1, ![800000]⟩
abbrev S50000x100 : Shape := ⟨2, ![50000, 100]⟩
abbrev S4x1x1 : Shape := ⟨3, ![4, 1, 1]⟩
abbrev S_ : Shape := ⟨0, ![]⟩

class Facts : Prop where
  bcast_S_S800000 : S_.BroadcastsInDim S800000 (![] : Fin 0 → Fin S800000.rank)
  reducesTo_S800000_S_d0 : S800000.ReducesTo [0] S_
  h_S_ : 0 < S_.numel
  bcast_S_S50000x100 : S_.BroadcastsInDim S50000x100 (![] : Fin 0 → Fin S50000x100.rank)
  reducesTo_S50000x100_S_d0_1 : S50000x100.ReducesTo [0, 1] S_
  bcast_S_S4x1x1 : S_.BroadcastsInDim S4x1x1 (![] : Fin 0 → Fin S4x1x1.rank)
  reducesTo_S4x1x1_S_d0_1_2 : S4x1x1.ReducesTo [0, 1, 2] S_

variable [Facts]

def fn {F : FTy → Type} [FloatOps F] (main_arg0 : IVec S800000 32) (main_arg1 : IVec S800000 32) (main_arg2 : FVec F S800000 .f32) (main_arg3 : FVec F S50000x100 .f32) (main_arg4 : FVec F S4x1x1 .f32) : IVec S_ 1 :=
  let main_v0 : FVec F S800000 .f32 := Host.absf main_arg2
  let main_cst : FVec F S_ .f32 := constant S_ .f32 0x7F800000#32
  let main_v1 : FVec F S800000 .f32 := broadcastInDim S800000 ![] bcast_S_S800000 main_cst
  let main_v2 : IVec S800000 1 := cmpf .olt main_v0 main_v1
  let main_c : IVec S_ 1 := constantI S_ 1 1#1
  let main_v3 : IVec S_ 1 := (fun x v => Host.reduce IntOp.andi x v reducesTo_S800000_S_d0 h_S_) main_v2 main_c
  let main_v4 : FVec F S50000x100 .f32 := Host.absf main_arg3
  let main_cst_0 : FVec F S_ .f32 := constant S_ .f32 0x7F800000#32
  let main_v5 : FVec F S50000x100 .f32 := broadcastInDim S50000x100 ![] bcast_S_S50000x100 main_cst_0
  let main_v6 : IVec S50000x100 1 := cmpf .olt main_v4 main_v5
  let main_c_1 : IVec S_ 1 := constantI S_ 1 1#1
  let main_v7 : IVec S_ 1 := (fun x v => Host.reduce IntOp.andi x v reducesTo_S50000x100_S_d0_1 h_S_) main_v6 main_c_1
  let main_v8 : IVec S_ 1 := andi main_v3 main_v7
  let main_v9 : FVec F S4x1x1 .f32 := Host.absf main_arg4
  let main_cst_2 : FVec F S_ .f32 := constant S_ .f32 0x7F800000#32
  let main_v10 : FVec F S4x1x1 .f32 := broadcastInDim S4x1x1 ![] bcast_S_S4x1x1 main_cst_2
  let main_v11 : IVec S4x1x1 1 := cmpf .olt main_v9 main_v10
  let main_c_3 : IVec S_ 1 := constantI S_ 1 1#1
  let main_v12 : IVec S_ 1 := (fun x v => Host.reduce IntOp.andi x v reducesTo_S4x1x1_S_d0_1_2 h_S_) main_v11 main_c_3
  let main_v13 : IVec S_ 1 := andi main_v8 main_v12
  main_v13
-- ==== Kernel.lean ====
abbrev S800000 : Shape := ⟨1, ![800000]⟩
abbrev S50000x100 : Shape := ⟨2, ![50000, 100]⟩
abbrev S4x1x1 : Shape := ⟨3, ![4, 1, 1]⟩
abbrev S800000x1 : Shape := ⟨2, ![800000, 1]⟩
abbrev S_ : Shape := ⟨0, ![]⟩
abbrev S800000x100 : Shape := ⟨2, ![800000, 100]⟩
abbrev S1x50000x100 : Shape := ⟨3, ![1, 50000, 100]⟩
abbrev S4x50000x100 : Shape := ⟨3, ![4, 50000, 100]⟩
abbrev S4x2000x100 : Shape := ⟨3, ![4, 2000, 100]⟩
abbrev S2000x100 : Shape := ⟨2, ![2000, 100]⟩
abbrev S4x2000 : Shape := ⟨2, ![4, 2000]⟩
abbrev S4x2000x1 : Shape := ⟨3, ![4, 2000, 1]⟩

abbrev nBuf : Space → Nat
  | .hbm => 59
  | .vmem => 5
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S800000, .f32⟩
  | .hbm, ⟨3, _⟩ => ⟨S50000x100, .f32⟩
  | .hbm, ⟨4, _⟩ => ⟨S4x1x1, .f32⟩
  | .hbm, ⟨5, _⟩ => ⟨S800000x1, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x100, .f32⟩
  | .hbm, ⟨15, _⟩ => ⟨S800000x100, .f32⟩
  | .hbm, ⟨16, _⟩ => ⟨S800000x100, .f32⟩
  | .hbm, ⟨17, _⟩ => ⟨S_, .f32⟩
  | .hbm, ⟨18, _⟩ => ⟨S50000x100, .f32⟩
  | .hbm, ⟨19, _⟩ => ⟨S800000x1, .i32⟩
  | .hbm, ⟨20, _⟩ => ⟨S50000x100, .f32⟩
  | .hbm, ⟨21, _⟩ => ⟨S800000x1, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x100, .f32⟩
  | .hbm, ⟨31, _⟩ => ⟨S800000x100, .f32⟩
  | .hbm, ⟨32, _⟩ => ⟨S800000x100, .f32⟩
  | .hbm, ⟨33, _⟩ => ⟨S_, .f32⟩
  | .hbm, ⟨34, _⟩ => ⟨S50000x100, .f32⟩
  | .hbm, ⟨35, _⟩ => ⟨S800000x1, .i32⟩
  | .hbm, ⟨36, _⟩ => ⟨S50000x100, .f32⟩
  | .hbm, ⟨37, _⟩ => ⟨S800000x1, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x100, .f32⟩
  | .hbm, ⟨47, _⟩ => ⟨S800000x100, .f32⟩
  | .hbm, ⟨48, _⟩ => ⟨S800000x100, .f32⟩
  | .hbm, ⟨49, _⟩ => ⟨S_, .f32⟩
  | .hbm, ⟨50, _⟩ => ⟨S50000x100, .f32⟩
  | .hbm, ⟨51, _⟩ => ⟨S800000x1, .i32⟩
  | .hbm, ⟨52, _⟩ => ⟨S50000x100, .f32⟩
  | .hbm, ⟨53, _⟩ => ⟨S1x50000x100, .f32⟩
  | .hbm, ⟨54, _⟩ => ⟨S1x50000x100, .f32⟩
  | .hbm, ⟨55, _⟩ => ⟨S1x50000x100, .f32⟩
  | .hbm, ⟨56, _⟩ => ⟨S1x50000x100, .f32⟩
  | .hbm, ⟨57, _⟩ => ⟨S4x50000x100, .f32⟩
  | .hbm, ⟨58, _⟩ => ⟨S50000x100, .f32⟩
  | .local _ .vmem, ⟨0, _⟩ => ⟨S4x2000x100, .f32⟩
  | .local _ .vmem, ⟨1, _⟩ => ⟨S4x2000x100, .f32⟩
  | .local _ .vmem, ⟨2, _⟩ => ⟨S4x1x1, .f32⟩
  | .local _ .vmem, ⟨3, _⟩ => ⟨S2000x100, .f32⟩
  | .local _ .vmem, ⟨4, _⟩ => ⟨S2000x100, .f32⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x2000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x100_0_1 : S800000x1.BroadcastsInDim S800000x100 (![0, 1] : Fin 2 → Fin S800000x100.rank)
  bcast_S_S50000x100 : S_.BroadcastsInDim S50000x100 (![] : Fin 0 → Fin S50000x100.rank)
  bcast_S50000x100_S1x50000x100_1_2 : S50000x100.BroadcastsInDim S1x50000x100 (![1, 2] : Fin 2 → Fin S1x50000x100.rank)
  concatenates_S1x50000x100_S1x50000x100_S1x50000x100_S1x50000x100_S4x50000x100_d0 : Shape.Concatenates [S1x50000x100, S1x50000x100, S1x50000x100, S1x50000x100] S4x50000x100 0
  inb_S4x2000x100_S4x2000x100_0_0_0 : ∀ a, (![0, 0, 0] : Fin 3 → Nat) a + S4x2000x100.size a ≤ S4x2000x100.size a
  h_S4x2000x100 : 0 < S4x2000x100.numel
  shapeCasts_S4x2000x100_S4x2000x100 : S4x2000x100.ShapeCasts S4x2000x100
  inb_S4x1x1_S4x1x1_0_0_0 : ∀ a, (![0, 0, 0] : Fin 3 → Nat) a + S4x1x1.size a ≤ S4x1x1.size a
  h_S4x1x1 : 0 < S4x1x1.numel
  reduces_S4x2000x100_S4x2000 : S4x2000x100.Reduces [2] S4x2000
  shapeCasts_S4x2000_S4x2000x1 : S4x2000.ShapeCasts S4x2000x1
  broadcasts_S4x2000x1_S4x2000x100 : S4x2000x1.Broadcasts S4x2000x100
  broadcasts_S4x1x1_S4x2000x100 : S4x1x1.Broadcasts S4x2000x100
  reduces_S4x2000x100_S2000x100 : S4x2000x100.Reduces [0] S2000x100
  inb_S2000x100_S2000x100_0_0 : ∀ a, (![0, 0] : Fin 2 → Nat) a + S2000x100.size a ≤ S2000x100.size a
  h_S2000x100 : 0 < S2000x100.numel
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2000x100.size a ≤ S4x50000x100.size a
  hwx0_0 : ∀ i : grid0.Coords, EltTy.bits .f32 = 32 ∨ (Rect.block (s := S4x50000x100) S4x2000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x1x1.size a ≤ S4x1x1.size a
  hwx0_1 : ∀ i : grid0.Coords, EltTy.bits .f32 = 32 ∨ (Rect.block (s := S4x1x1) S4x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x100.size a ≤ S50000x100.size a
  hwx0_2 : ∀ i : grid0.Coords, EltTy.bits .f32 = 32 ∨ (Rect.block (s := S50000x100) S2000x100.size (cc0_transform_2 i) (hinb0_2 i)).WholeWords (EltTy.packing .f32)

variable [Facts₀]

def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf

abbrev win0_0 : Pipeline.Window sig grid0 :=
  Pipeline.Window.ofSpec (Memref.whole main_v43) S4x2000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S4x1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v44) S2000x100.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S800000 : Shape := ⟨1, ![800000]⟩
abbrev S50000x100 : Shape := ⟨2, ![50000, 100]⟩
abbrev S4x1x1 : Shape := ⟨3, ![4, 1, 1]⟩
abbrev S800000x1 : Shape := ⟨2, ![800000, 1]⟩
abbrev S_ : Shape := ⟨0, ![]⟩
abbrev S800000x100 : Shape := ⟨2, ![800000, 100]⟩
abbrev S1x50000x100 : Shape := ⟨3, ![1, 50000, 100]⟩
abbrev S4x50000x100 : Shape := ⟨3, ![4, 50000, 100]⟩
abbrev S4x50000 : Shape := ⟨2, ![4, 50000]⟩
abbrev S4x50000x1 : Shape := ⟨3, ![4, 50000, 1]⟩

abbrev nBuf : Space → Nat
  | .hbm => 72
  | .vmem => 0
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S800000, .f32⟩
  | .hbm, ⟨3, _⟩ => ⟨S50000x100, .f32⟩
  | .hbm, ⟨4, _⟩ => ⟨S4x1x1, .f32⟩
  | .hbm, ⟨5, _⟩ => ⟨S800000x1, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x100, .f32⟩
  | .hbm, ⟨15, _⟩ => ⟨S800000x100, .f32⟩
  | .hbm, ⟨16, _⟩ => ⟨S800000x100, .f32⟩
  | .hbm, ⟨17, _⟩ => ⟨S_, .f32⟩
  | .hbm, ⟨18, _⟩ => ⟨S50000x100, .f32⟩
  | .hbm, ⟨19, _⟩ => ⟨S800000x1, .i32⟩
  | .hbm, ⟨20, _⟩ => ⟨S50000x100, .f32⟩
  | .hbm, ⟨21, _⟩ => ⟨S800000x1, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x100, .f32⟩
  | .hbm, ⟨31, _⟩ => ⟨S800000x100, .f32⟩
  | .hbm, ⟨32, _⟩ => ⟨S800000x100, .f32⟩
  | .hbm, ⟨33, _⟩ => ⟨S_, .f32⟩
  | .hbm, ⟨34, _⟩ => ⟨S50000x100, .f32⟩
  | .hbm, ⟨35, _⟩ => ⟨S800000x1, .i32⟩
  | .hbm, ⟨36, _⟩ => ⟨S50000x100, .f32⟩
  | .hbm, ⟨37, _⟩ => ⟨S800000x1, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x100, .f32⟩
  | .hbm, ⟨47, _⟩ => ⟨S800000x100, .f32⟩
  | .hbm, ⟨48, _⟩ => ⟨S800000x100, .f32⟩
  | .hbm, ⟨49, _⟩ => ⟨S_, .f32⟩
  | .hbm, ⟨50, _⟩ => ⟨S50000x100, .f32⟩
  | .hbm, ⟨51, _⟩ => ⟨S800000x1, .i32⟩
  | .hbm, ⟨52, _⟩ => ⟨S50000x100, .f32⟩
  | .hbm, ⟨53, _⟩ => ⟨S1x50000x100, .f32⟩
  | .hbm, ⟨54, _⟩ => ⟨S1x50000x100, .f32⟩
  | .hbm, ⟨55, _⟩ => ⟨S1x50000x100, .f32⟩
  | .hbm, ⟨56, _⟩ => ⟨S1x50000x100, .f32⟩
  | .hbm, ⟨57, _⟩ => ⟨S4x50000x100, .f32⟩
  | .hbm, ⟨58, _⟩ => ⟨S4x50000x100, .f32⟩
  | .hbm, ⟨59, _⟩ => ⟨S_, .f32⟩
  | .hbm, ⟨60, _⟩ => ⟨S4x50000, .f32⟩
  | .hbm, ⟨61, _⟩ => ⟨S4x50000x1, .f32⟩
  | .hbm, ⟨62, _⟩ => ⟨S4x50000x1, .f32⟩
  | .hbm, ⟨63, _⟩ => ⟨S_, .f32⟩
  | .hbm, ⟨64, _⟩ => ⟨S4x50000x1, .f32⟩
  | .hbm, ⟨65, _⟩ => ⟨S4x50000x1, .f32⟩
  | .hbm, ⟨66, _⟩ => ⟨S4x50000x100, .f32⟩
  | .hbm, ⟨67, _⟩ => ⟨S4x50000x100, .f32⟩
  | .hbm, ⟨68, _⟩ => ⟨S4x50000x100, .f32⟩
  | .hbm, ⟨69, _⟩ => ⟨S4x50000x100, .f32⟩
  | .hbm, ⟨70, _⟩ => ⟨S_, .f32⟩
  | .hbm, ⟨71, _⟩ => ⟨S50000x100, .f32⟩
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_9 : Ref sig .tc := ⟨.hbm, 70, rfl⟩
abbrev main_v54 : Ref sig .tc := ⟨.hbm, 71, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x100_0_1 : S800000x1.BroadcastsInDim S800000x100 (![0, 1] : Fin 2 → Fin S800000x100.rank)
  bcast_S_S50000x100 : S_.BroadcastsInDim S50000x100 (![] : Fin 0 → Fin S50000x100.rank)
  bcast_S50000x100_S1x50000x100_1_2 : S50000x100.BroadcastsInDim S1x50000x100 (![1, 2] : Fin 2 → Fin S1x50000x100.rank)
  concatenates_S1x50000x100_S1x50000x100_S1x50000x100_S1x50000x100_S4x50000x100_d0 : Shape.Concatenates [S1x50000x100, S1x50000x100, S1x50000x100, S1x50000x100] S4x50000x100 0
  reducesTo_S4x50000x100_S4x50000_d2 : S4x50000x100.ReducesTo [2] S4x50000
  h_S_ : 0 < S_.numel
  bcast_S4x50000_S4x50000x1_0_1 : S4x50000.BroadcastsInDim S4x50000x1 (![0, 1] : Fin 2 → Fin S4x50000x1.rank)
  bcast_S_S4x50000x1 : S_.BroadcastsInDim S4x50000x1 (![] : Fin 0 → Fin S4x50000x1.rank)
  bcast_S4x50000x1_S4x50000x100_0_1_2 : S4x50000x1.BroadcastsInDim S4x50000x100 (![0, 1, 2] : Fin 3 → Fin S4x50000x100.rank)
  bcast_S4x1x1_S4x50000x100_0_1_2 : S4x1x1.BroadcastsInDim S4x50000x100 (![0, 1, 2] : Fin 3 → Fin S4x50000x100.rank)
  reducesTo_S4x50000x100_S50000x100_d0 : S4x50000x100.ReducesTo [0] S50000x100
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1

variable [Facts₀]

def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf

class Facts : Prop extends Facts₀ where

variable [Facts]
-- ==== Proof.KernelRegion.lean ====
/-
  The run of `Kernel`'s @main.

  @main is a stretch of host operations (three rounds of gather / scale / scatter-add, then the four layer
  arrays stacked into one [4, 50000, 100] array), followed by ONE pipelined kernel over 25 grid points. At point
  `t` the kernel is handed rows 2000·t … 2000·t + 1999 of the stacked array (all four layers) and the four layer
  weights, and stores one [2000, 100] block: for each row, the weighted sum over the layers of the row divided by
  its clamped Euclidean norm. It keeps nothing between points, so what the block holds after the body is one
  function of the two input blocks (`combined`), and the output array after the run is the library's
  block-by-block overwrite of its entry contents (`Dat.arrAt`).

  The arguments end unchanged because no host operation writes an argument buffer and the kernel only writes
  its result array. Everything is stated for an arbitrary float instance `F`.
-/
import proofs.«131152_j35192962024015_1_alg».proof.Proof.Gen.Kernel.Launch
import proofs.«131152_j35192962024015_1_alg».proof.Proof.Gen.Kernel.Skeleton
import proofs.«131152_j35192962024015_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the kernel -/

/-- What core `c`'s buffer `b` holds when the kernel is launched: the launch memory after the host operations. -/
abbrev atEntry (c : Dev nD) (b : Ref sig .tc) : Buf (Elt F) ((c : Thread nD τ).loc b) :=
  StableHlo.after hostOps0 (fun b => m (c, b)) b

/-- The host operations allocate nothing. -/
theorem prefix_allocates_nothing : (hostOps0 : List (HloOp τ sig (Elt F))).Forall fun op => op.fresh = ∅ := by
  simp only [List.Forall]; repeat' constructor

/-- @main is the host operations, then the kernel's region entered at `atEntry`. -/
theorem main_reaches_kernel (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub prefix_allocates_nothing main_chain

/-- Every host operation writes only its own result buffer, and none of those is an argument: so an argument
    buffer is found by the kernel as launched. The five instances follow. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
theorem atEntry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

/-! ## The blocks the kernel is handed -/

/-- Window `w`'s block at grid point `t`, cut out of its array as the kernel finds it. For the stacked array this is
    rows 2000·t … 2000·t + 1999 of every layer; for the weights it is the whole [4, 1, 1] array at every point. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The staging buffer of the stacked array holds the point's block when the body starts, for any proof data
    whose arrays are the entry contents and whose body leaves that buffer alone. -/
theorem layers_staged {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- The same for the weights: fetched once, at the first point, and found in place at every later one because the
    block index never moves. -/
theorem weights_staged {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The arguments after a run -/

/-- From a run that ends with every array of the pipeline at the library's `Dat.arrAt` and every other buffer at
    its entry contents, the five arguments end as launched: four of them are touched by nothing after entry, and
    the weights are an input array of the pipeline, which it only reads. -/
theorem args_kept (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (atEntry_arg0 m c),
     ((h c).2 main_arg1 (Pipeline.mem_restRefs_of main_arg1 (by decide) (by decide))).trans (atEntry_arg1 m c),
     ((h c).2 main_arg2 (Pipeline.mem_restRefs_of main_arg2 (by decide) (by decide))).trans (atEntry_arg2 m c),
     ((h c).2 main_arg3 (Pipeline.mem_restRefs_of main_arg3 (by decide) (by decide))).trans (atEntry_arg3 m c),
     ((h c).1 1).trans (((dats 0 c).arrAt_in 1 rfl _).trans ((hA c 1).trans (atEntry_arg4 m c)))⟩) h

/-! ## What the body stores -/

/-- The body's three accesses each span a whole staging buffer. -/
abbrev wholeLayers : Rect S4x2000x100 := Rect.unit (s := S4x2000x100) ![0, 0, 0] S4x2000x100.size Facts₀.inb_S4x2000x100_S4x2000x100_0_0_0
abbrev wholeWeights : Rect S4x1x1 := Rect.unit (s := S4x1x1) ![0, 0, 0] S4x1x1.size Facts₀.inb_S4x1x1_S4x1x1_0_0_0
abbrev wholeOut : Rect S2000x100 := Rect.unit (s := S2000x100) ![0, 0] S2000x100.size Facts₀.inb_S2000x100_S2000x100_0_0

/-- The output staging buffer after the body, as a function of the two input blocks: the body's one store, of the
    normalised and weighted layer sum, over the whole buffer. -/
def combined (x : Vec F S4x2000x100 .f32) (a : Vec F S4x1x1 .f32) : Vec F S2000x100 .f32 :=
  View.canon [⟨wholeOut, k0_pay1 (View.ld x wholeLayers) (View.ld a wholeWeights)⟩]

/-- That store covers the buffer. -/
theorem store_covers (p0 : Vec F S2000x100 .f32) (y : S2000x100.Idx) :
    ∃ pc ∈ ([⟨wholeOut, p0⟩] : List (View.Piece (Elt F) S2000x100 .f32)), y ∈ pc.1.set :=
  View.cover_of_tiled [⟨wholeOut, p0⟩] S2000x100.size (by rfl) y

/-! ## The body's triple -/

set_option maxHeartbeats 1000000 in
/-- The kernel body on whole staging buffers — the two inputs at contents `x`, `a`, the output at anything — runs to
    the end leaving the inputs as they were and the output at `combined x a`. (The body also loads the output
    buffer once before storing into it; the loaded value is not used.) -/
theorem body_runs (c : Dev nD) (E : Set ℕ) (i : grid0.Coords)
    (arg1 : Memref sig .tc .vmem S4x2000x100 .f32) (harg1 : arg1.IsWhole)
    (arg2 : Memref sig .tc .vmem S4x1x1 .f32) (harg2 : arg2.IsWhole)
    (arg3 : Memref sig .tc .vmem S2000x100 .f32) (harg3 : arg3.IsWhole)
    (x : Vec F S4x2000x100 .f32) (a : Vec F S4x1x1 .f32) (K : PUnit → sProp 𝕄) :
    iprop(owns (c : Thread nD τ) arg1 fullShare x ∗ owns (c : Thread nD τ) arg2 fullShare a ∗ (∃ d, owns (c : Thread nD τ) arg3 fullShare d)
        ∗ (iprop(owns (c : Thread nD τ) arg1 fullShare x ∗ owns (c : Thread nD τ) arg2 fullShare a ∗ owns (c : Thread nD τ) arg3 fullShare (combined x a)) -∗ K ⟨⟩))
      ⊢ wp frame (wpE (defs₀ (F := F)) Variants.none c none) E (cc0__norm_combine_kernel i arg1 harg1 arg2 harg2 arg3 harg3) K := by
  simp only [cc0__norm_combine_kernel_eq_skeleton]; unfold cc0__norm_combine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The proof data -/

/-- The pipeline's proof data on core `c`: the arrays as found at entry; after the body at point `t` each input
    buffer still at its block and the output buffer at `combined` of the two blocks; the invariant only the
    untouched scoped rest and the generator register; nothing owed, full shares. -/
def pdat (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => combined (blockAt m c 0 t) (blockAt m c 1 t)
  Φ _ := Pipeline.ΦA spec0 c
  q _ := fullShare
  owed _ := 0

theorem pdat_A (c : Dev nD) (w : Fin cfg0.W) : (pdat m 0 c).A w = atEntry m c (Pipeline.arrRef spec0 w) := by
  dsimp only [pdat]

theorem after_layers (c : Dev nD) (t : Fin cfg0.N) : (pdat m 0 c).after 0 t = blockAt m c 0 t := by dsimp only [pdat]
theorem after_weights (c : Dev nD) (t : Fin cfg0.N) : (pdat m 0 c).after 1 t = blockAt m c 1 t := by dsimp only [pdat]
theorem after_out (c : Dev nD) (t : Fin cfg0.N) :
    (pdat m 0 c).after 2 t = combined (blockAt m c 0 t) (blockAt m c 1 t) := by dsimp only [pdat]

theorem before_layers (c : Dev nD) (t : Fin cfg0.N) (d) : (pdat m 0 c).before 0 t d = blockAt m c 0 t :=
  layers_staged m (pdat m 0 c) (pdat_A m c 0) (after_layers m c) t d
theorem before_weights (c : Dev nD) (t : Fin cfg0.N) (d) : (pdat m 0 c).before 1 t d = blockAt m c 1 t :=
  weights_staged m (pdat m 0 c) (pdat_A m c 1) (after_weights m c) t d

/-! ## The body at a grid point -/

/-- What the pipeline hands the body at point `t`, window by window, -/
def handed (c : Dev nD) (t : Fin cfg0.N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d)))

/-- and what the body gives back. -/
def returned (c : Dev nD) (t : Fin cfg0.N) : sProp 𝕄 :=
  iprop((pdat m 0 c).Φ t.succ ∗ (pdat m 0 c).owesAt () t.succ
    ∗ owns (c : Thread nD τ) (st0_0 t) fullShare ((pdat m 0 c).after 0 t)
    ∗ owns (c : Thread nD τ) (st0_1 t) fullShare ((pdat m 0 c).after 1 t)
    ∗ owns (c : Thread nD τ) (st0_2 t) fullShare ((pdat m 0 c).after 2 t))

/-- At any point the input buffers hold their blocks, so the body's triple applies; the invariant and the owed
    tokens pass through untouched. -/
theorem body_at_point (c : Dev nD) (t : Fin cfg0.N) :
    handed m c t ⊢ wp frame (wpE (defs₀ (F := F)) Variants.none c none) Set.univ (bodyAt0 t) (fun _ => returned m c t) := by
  unfold handed returned bodyAt0
  simp only [before_layers, before_weights]
  rw [show (pdat m 0 c).Φ t.succ = (pdat m 0 c).Φ t.castSucc from rfl,
    show (pdat m 0 c).owesAt () t.succ = (pdat m 0 c).owesAt () t.castSucc from rfl,
    after_layers, after_weights, after_out]
  iintro ⟨HΦ, Ho, ⟨%d0, H0⟩, ⟨%d1, H1⟩, ⟨%d2, H2⟩⟩
  iapply (body_runs c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (pdat (F := F) m 0 c) (defs₀ (F := F)) Variants.none () Set.univ := fun t => by
  rw [bigSep_W0, bigSep_W0]
  exact body_at_point m c t

/-! ## The run -/

set_option backward.isDefEq.respectTransparency.types false in
/-- Every weakly fair execution of @main terminates without a fault, every array of the pipeline ending at the
    library's `Dat.arrAt` of the proof data and every other unscoped buffer at its entry contents. -/
theorem run_main : θ_run defs (onTc (τ := τ) (main (F := F))) (s₀ m ρ) (Pipeline.FramePost cfgs (pdat m) 0 (atEntry m)) :=
  Pipeline.θ_run_frame cfgs (pdat m) (0 : Fin 1) launch0 defs₀ Variants.none m ρ main
    (hbody := fun c => (body_obligation m c).loose) (hshare := fun c => (pdat m 0 c).share_full fun _ => rfl)
    (howed := fun _ _ => rfl) (V := atEntry m) (hmain := main_reaches_kernel m Variants.none) (hA := pdat_A m) (hΦ := fun _ _ => rfl)

/-- The frame: @main runs to the end and the five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  args_kept m ρ (pdat m) (pdat_A m) (run_main m ρ)

end Cert.Kernel.Region

end
-- ==== Proof.KernelIdealRegion.lean ====
/-
  The run of `KernelIdeal`'s @main.

  @main is a stretch of host operations (three rounds of gather / scale / scatter-add, then the four layer
  arrays stacked into one [4, 50000, 100] array), followed by ONE pipelined kernel over 25 grid points. At point
  `t` the kernel is handed rows 2000·t … 2000·t + 1999 of the stacked array (all four layers) and the four layer
  weights, and stores one [2000, 100] block: for each row, the weighted sum over the layers of the row divided by
  its clamped Euclidean norm. It keeps nothing between points, so what the block holds after the body is one
  function of the two input blocks (`combined`), and the output array after the run is the library's
  block-by-block overwrite of its entry contents (`Dat.arrAt`).

  The arguments end unchanged because no host operation writes an argument buffer and the kernel only writes
  its result array. Everything is stated for an arbitrary float instance `F`.
-/
import proofs.«131152_j35192962024015_1_alg».proof.Proof.Gen.KernelIdeal.Launch
import proofs.«131152_j35192962024015_1_alg».proof.Proof.Gen.KernelIdeal.Skeleton
import proofs.«131152_j35192962024015_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the kernel -/

/-- What core `c`'s buffer `b` holds when the kernel is launched: the launch memory after the host operations. -/
abbrev atEntry (c : Dev nD) (b : Ref sig .tc) : Buf (Elt F) ((c : Thread nD τ).loc b) :=
  StableHlo.after hostOps0 (fun b => m (c, b)) b

/-- The host operations allocate nothing. -/
theorem prefix_allocates_nothing : (hostOps0 : List (HloOp τ sig (Elt F))).Forall fun op => op.fresh = ∅ := by
  simp only [List.Forall]; repeat' constructor

/-- @main is the host operations, then the kernel's region entered at `atEntry`. -/
theorem main_reaches_kernel (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub prefix_allocates_nothing main_chain

/-- Every host operation writes only its own result buffer, and none of those is an argument: so an argument
    buffer is found by the kernel as launched. The five instances follow. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
theorem atEntry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

/-! ## The blocks the kernel is handed -/

/-- Window `w`'s block at grid point `t`, cut out of its array as the kernel finds it. For the stacked array this is
    rows 2000·t … 2000·t + 1999 of every layer; for the weights it is the whole [4, 1, 1] array at every point. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The staging buffer of the stacked array holds the point's block when the body starts, for any proof data
    whose arrays are the entry contents and whose body leaves that buffer alone. -/
theorem layers_staged {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- The same for the weights: fetched once, at the first point, and found in place at every later one because the
    block index never moves. -/
theorem weights_staged {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The arguments after a run -/

/-- From a run that ends with every array of the pipeline at the library's `Dat.arrAt` and every other buffer at
    its entry contents, the five arguments end as launched: four of them are touched by nothing after entry, and
    the weights are an input array of the pipeline, which it only reads. -/
theorem args_kept (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (atEntry_arg0 m c),
     ((h c).2 main_arg1 (Pipeline.mem_restRefs_of main_arg1 (by decide) (by decide))).trans (atEntry_arg1 m c),
     ((h c).2 main_arg2 (Pipeline.mem_restRefs_of main_arg2 (by decide) (by decide))).trans (atEntry_arg2 m c),
     ((h c).2 main_arg3 (Pipeline.mem_restRefs_of main_arg3 (by decide) (by decide))).trans (atEntry_arg3 m c),
     ((h c).1 1).trans (((dats 0 c).arrAt_in 1 rfl _).trans ((hA c 1).trans (atEntry_arg4 m c)))⟩) h

/-! ## What the body stores -/

/-- The body's three accesses each span a whole staging buffer. -/
abbrev wholeLayers : Rect S4x2000x100 := Rect.unit (s := S4x2000x100) ![0, 0, 0] S4x2000x100.size Facts₀.inb_S4x2000x100_S4x2000x100_0_0_0
abbrev wholeWeights : Rect S4x1x1 := Rect.unit (s := S4x1x1) ![0, 0, 0] S4x1x1.size Facts₀.inb_S4x1x1_S4x1x1_0_0_0
abbrev wholeOut : Rect S2000x100 := Rect.unit (s := S2000x100) ![0, 0] S2000x100.size Facts₀.inb_S2000x100_S2000x100_0_0

/-- The output staging buffer after the body, as a function of the two input blocks: the body's one store, of the
    normalised and weighted layer sum, over the whole buffer. -/
def combined (x : Vec F S4x2000x100 .f32) (a : Vec F S4x1x1 .f32) : Vec F S2000x100 .f32 :=
  View.canon [⟨wholeOut, k0_pay1 (View.ld x wholeLayers) (View.ld a wholeWeights)⟩]

/-- That store covers the buffer. -/
theorem store_covers (p0 : Vec F S2000x100 .f32) (y : S2000x100.Idx) :
    ∃ pc ∈ ([⟨wholeOut, p0⟩] : List (View.Piece (Elt F) S2000x100 .f32)), y ∈ pc.1.set :=
  View.cover_of_tiled [⟨wholeOut, p0⟩] S2000x100.size (by rfl) y

/-! ## The body's triple -/

set_option maxHeartbeats 1000000 in
/-- The kernel body on whole staging buffers — the two inputs at contents `x`, `a`, the output at anything — runs to
    the end leaving the inputs as they were and the output at `combined x a`. (The body also loads the output
    buffer once before storing into it; the loaded value is not used.) -/
theorem body_runs (c : Dev nD) (E : Set ℕ) (i : grid0.Coords)
    (arg1 : Memref sig .tc .vmem S4x2000x100 .f32) (harg1 : arg1.IsWhole)
    (arg2 : Memref sig .tc .vmem S4x1x1 .f32) (harg2 : arg2.IsWhole)
    (arg3 : Memref sig .tc .vmem S2000x100 .f32) (harg3 : arg3.IsWhole)
    (x : Vec F S4x2000x100 .f32) (a : Vec F S4x1x1 .f32) (K : PUnit → sProp 𝕄) :
    iprop(owns (c : Thread nD τ) arg1 fullShare x ∗ owns (c : Thread nD τ) arg2 fullShare a ∗ (∃ d, owns (c : Thread nD τ) arg3 fullShare d)
        ∗ (iprop(owns (c : Thread nD τ) arg1 fullShare x ∗ owns (c : Thread nD τ) arg2 fullShare a ∗ owns (c : Thread nD τ) arg3 fullShare (combined x a)) -∗ K ⟨⟩))
      ⊢ wp frame (wpE (defs₀ (F := F)) Variants.none c none) E (cc0__norm_combine_kernel i arg1 harg1 arg2 harg2 arg3 harg3) K := by
  simp only [cc0__norm_combine_kernel_eq_skeleton]; unfold cc0__norm_combine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The proof data -/

/-- The pipeline's proof data on core `c`: the arrays as found at entry; after the body at point `t` each input
    buffer still at its block and the output buffer at `combined` of the two blocks; the invariant only the
    untouched scoped rest and the generator register; nothing owed, full shares. -/
def pdat (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => combined (blockAt m c 0 t) (blockAt m c 1 t)
  Φ _ := Pipeline.ΦA spec0 c
  q _ := fullShare
  owed _ := 0

theorem pdat_A (c : Dev nD) (w : Fin cfg0.W) : (pdat m 0 c).A w = atEntry m c (Pipeline.arrRef spec0 w) := by
  dsimp only [pdat]

theorem after_layers (c : Dev nD) (t : Fin cfg0.N) : (pdat m 0 c).after 0 t = blockAt m c 0 t := by dsimp only [pdat]
theorem after_weights (c : Dev nD) (t : Fin cfg0.N) : (pdat m 0 c).after 1 t = blockAt m c 1 t := by dsimp only [pdat]
theorem after_out (c : Dev nD) (t : Fin cfg0.N) :
    (pdat m 0 c).after 2 t = combined (blockAt m c 0 t) (blockAt m c 1 t) := by dsimp only [pdat]

theorem before_layers (c : Dev nD) (t : Fin cfg0.N) (d) : (pdat m 0 c).before 0 t d = blockAt m c 0 t :=
  layers_staged m (pdat m 0 c) (pdat_A m c 0) (after_layers m c) t d
theorem before_weights (c : Dev nD) (t : Fin cfg0.N) (d) : (pdat m 0 c).before 1 t d = blockAt m c 1 t :=
  weights_staged m (pdat m 0 c) (pdat_A m c 1) (after_weights m c) t d

/-! ## The body at a grid point -/

/-- What the pipeline hands the body at point `t`, window by window, -/
def handed (c : Dev nD) (t : Fin cfg0.N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d)))

/-- and what the body gives back. -/
def returned (c : Dev nD) (t : Fin cfg0.N) : sProp 𝕄 :=
  iprop((pdat m 0 c).Φ t.succ ∗ (pdat m 0 c).owesAt () t.succ
    ∗ owns (c : Thread nD τ) (st0_0 t) fullShare ((pdat m 0 c).after 0 t)
    ∗ owns (c : Thread nD τ) (st0_1 t) fullShare ((pdat m 0 c).after 1 t)
    ∗ owns (c : Thread nD τ) (st0_2 t) fullShare ((pdat m 0 c).after 2 t))

/-- At any point the input buffers hold their blocks, so the body's triple applies; the invariant and the owed
    tokens pass through untouched. -/
theorem body_at_point (c : Dev nD) (t : Fin cfg0.N) :
    handed m c t ⊢ wp frame (wpE (defs₀ (F := F)) Variants.none c none) Set.univ (bodyAt0 t) (fun _ => returned m c t) := by
  unfold handed returned bodyAt0
  simp only [before_layers, before_weights]
  rw [show (pdat m 0 c).Φ t.succ = (pdat m 0 c).Φ t.castSucc from rfl,
    show (pdat m 0 c).owesAt () t.succ = (pdat m 0 c).owesAt () t.castSucc from rfl,
    after_layers, after_weights, after_out]
  iintro ⟨HΦ, Ho, ⟨%d0, H0⟩, ⟨%d1, H1⟩, ⟨%d2, H2⟩⟩
  iapply (body_runs c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (pdat (F := F) m 0 c) (defs₀ (F := F)) Variants.none () Set.univ := fun t => by
  rw [bigSep_W0, bigSep_W0]
  exact body_at_point m c t

/-! ## The run -/

set_option backward.isDefEq.respectTransparency.types false in
/-- Every weakly fair execution of @main terminates without a fault, every array of the pipeline ending at the
    library's `Dat.arrAt` of the proof data and every other unscoped buffer at its entry contents. -/
theorem run_main : θ_run defs (onTc (τ := τ) (main (F := F))) (s₀ m ρ) (Pipeline.FramePost cfgs (pdat m) 0 (atEntry m)) :=
  Pipeline.θ_run_frame cfgs (pdat m) (0 : Fin 1) launch0 defs₀ Variants.none m ρ main
    (hbody := fun c => (body_obligation m c).loose) (hshare := fun c => (pdat m 0 c).share_full fun _ => rfl)
    (howed := fun _ _ => rfl) (V := atEntry m) (hmain := main_reaches_kernel m Variants.none) (hA := pdat_A m) (hΦ := fun _ _ => rfl)

/-- The frame: @main runs to the end and the five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  args_kept m ρ (pdat m) (pdat_A m) (run_main m ρ)

end Cert.KernelIdeal.Region

end
-- ==== Proof.LibGroupAxes.lean ====
/-
  A trailing axis read as groups of lanes, at an index.

  An array `[A, N]` whose second axis is `B` groups of `C` consecutive entries (`N = B · C`) is the array
  `[A, B, C]`: group `g`, lane `j` of row `p` is entry `g · C + j` of that row, because both indices have the same
  row-major position, `p · N + (g · C + j) = (p · B + g) · C + j`. The lemmas below read, at one index,

  * the shape cast `[A, N] → [A, B, C]` and the cast back (`split_apply`, `merge_apply`);
  * a per-group value kept on a unit axis, `[A, B] → [A, B, 1]`, and spread over the lanes,
    `[A, B, 1] → [A, B, C]` (`keep_apply`, `spread_lanes_apply`): what a `keepdims` reduction is followed by;
  * a per-group parameter `[1, B] → [1, B, 1]` spread over rows and lanes, `[1, B, 1] → [A, B, C]`
    (`keep_row_apply`, `spread_groups_apply`), and a per-column one `[1, N] → [A, N]` (`spread_rows_apply`);
  * a sum over the lane axis of `[A, B, C]` on the extended reals, as the sum over `Fin C` (`lane_sum_apply`).

  All are stated over arbitrary extents, with every index built from its coordinates by `ix2` / `ix3`.
-/
import Idealize.ShloMosaic.Lib.Pipeline.Value
import Idealize.ShloMosaic.Lib.ValueIdx
import Idealize.ShloMosaic.PureOps.Ideal.Laws

namespace Cert.LibGroupAxes

open Idealize.ShloMosaic Idealize.ShloMosaic.ValueIdx

variable {α : Type} {A B C N : Nat}

/-- `[A, N] → [A, B, C]` at (p, g, j) is the operand at (p, q) when `q = g · C + j`. -/
theorem split_apply (hN : N = B * C) (v : (⟨2, ![A, N]⟩ : Shape).Idx → α)
    (h : (⟨2, ![A, N]⟩ : Shape).ShapeCasts ⟨3, ![A, B, C]⟩) (p : Fin A) (g : Fin B) (j : Fin C) (q : Fin N)
    (hq : q.val = g.val * C + j.val) :
    shapeCast ⟨3, ![A, B, C]⟩ v h (ix3 p g j) = v (ix2 p q) :=
  shapeCast_apply v h (ix3 p g j) (ix2 p q) (by
    rw [Shape.rowMajor_val_two, Shape.rowMajor_val_three]
    show p.val * N + q.val = (p.val * B + g.val) * C + j.val
    rw [hq, hN]; ring)

/-- `[A, B, C] → [A, N]` at (p, q) is the operand at (p, g, j) when `q = g · C + j`. -/
theorem merge_apply (hN : N = B * C) (v : (⟨3, ![A, B, C]⟩ : Shape).Idx → α)
    (h : (⟨3, ![A, B, C]⟩ : Shape).ShapeCasts ⟨2, ![A, N]⟩) (p : Fin A) (g : Fin B) (j : Fin C) (q : Fin N)
    (hq : q.val = g.val * C + j.val) :
    shapeCast ⟨2, ![A, N]⟩ v h (ix2 p q) = v (ix3 p g j) :=
  shapeCast_apply v h (ix2 p q) (ix3 p g j) (by
    rw [Shape.rowMajor_val_two, Shape.rowMajor_val_three]
    show (p.val * B + g.val) * C + j.val = p.val * N + q.val
    rw [hq, hN]; ring)

/-- `[A, B] → [A, B, 1]` at (p, g, 0) is the operand at (p, g). -/
theorem keep_apply (v : (⟨2, ![A, B]⟩ : Shape).Idx → α) (h : (⟨2, ![A, B]⟩ : Shape).ShapeCasts ⟨3, ![A, B, 1]⟩)
    (p : Fin A) (g : Fin B) :
    shapeCast ⟨3, ![A, B, 1]⟩ v h (ix3 p g (0 : Fin 1)) = v (ix2 p g) :=
  shapeCast_apply v h (ix3 p g (0 : Fin 1)) (ix2 p g) (by
    rw [Shape.rowMajor_val_two, Shape.rowMajor_val_three]
    show p.val * B + g.val = (p.val * B + g.val) * 1 + 0
    omega)

/-- `[1, B] → [1, B, 1]` at (0, g, 0) is the operand at (0, g). -/
theorem keep_row_apply (v : (⟨2, ![1, B]⟩ : Shape).Idx → α) (h : (⟨2, ![1, B]⟩ : Shape).ShapeCasts ⟨3, ![1, B, 1]⟩)
    (g : Fin B) :
    shapeCast ⟨3, ![1, B, 1]⟩ v h (ix3 (0 : Fin 1) g (0 : Fin 1)) = v (ix2 (0 : Fin 1) g) :=
  keep_apply v h (0 : Fin 1) g

/-- `[A, B, 1] → [A, B, C]` at (p, g, j) is the operand at (p, g, 0): one value for the whole group. -/
theorem spread_lanes_apply (v : (⟨3, ![A, B, 1]⟩ : Shape).Idx → α)
    (h : (⟨3, ![A, B, 1]⟩ : Shape).Broadcasts ⟨3, ![A, B, C]⟩) (p : Fin A) (g : Fin B) (j : Fin C) :
    broadcastTo ⟨3, ![A, B, C]⟩ v h (ix3 p g j) = v (ix3 p g (0 : Fin 1)) :=
  broadcastTo_apply v h (ix3 p g j) (ix3 p g (0 : Fin 1)) (fun ax => match ax with
    | ⟨0, _⟩ => by
        show p.val = if A = 1 then 0 else p.val
        split_ifs with h1
        · have := p.isLt; omega
        · rfl
    | ⟨1, _⟩ => by
        show g.val = if B = 1 then 0 else g.val
        split_ifs with h1
        · have := g.isLt; omega
        · rfl
    | ⟨2, _⟩ => by
        show 0 = if (1 : Nat) = 1 then 0 else j.val
        rw [if_pos rfl])

/-- `[1, B, 1] → [A, B, C]` at (p, g, j) is the operand at (0, g, 0): one value per group, for every row. -/
theorem spread_groups_apply (v : (⟨3, ![1, B, 1]⟩ : Shape).Idx → α)
    (h : (⟨3, ![1, B, 1]⟩ : Shape).Broadcasts ⟨3, ![A, B, C]⟩) (p : Fin A) (g : Fin B) (j : Fin C) :
    broadcastTo ⟨3, ![A, B, C]⟩ v h (ix3 p g j) = v (ix3 (0 : Fin 1) g (0 : Fin 1)) :=
  broadcastTo_apply v h (ix3 p g j) (ix3 (0 : Fin 1) g (0 : Fin 1)) (fun ax => match ax with
    | ⟨0, _⟩ => by
        show 0 = if (1 : Nat) = 1 then 0 else p.val
        rw [if_pos rfl]
    | ⟨1, _⟩ => by
        show g.val = if B = 1 then 0 else g.val
        split_ifs with h1
        · have := g.isLt; omega
        · rfl
    | ⟨2, _⟩ => by
        show 0 = if (1 : Nat) = 1 then 0 else j.val
        rw [if_pos rfl])

/-- `[1, N] → [A, N]` at (p, q) is the operand at (0, q): one value per column, for every row. -/
theorem spread_rows_apply (v : (⟨2, ![1, N]⟩ : Shape).Idx → α)
    (h : (⟨2, ![1, N]⟩ : Shape).Broadcasts ⟨2, ![A, N]⟩) (p : Fin A) (q : Fin N) :
    broadcastTo ⟨2, ![A, N]⟩ v h (ix2 p q) = v (ix2 (0 : Fin 1) q) :=
  broadcastTo_apply v h (ix2 p q) (ix2 (0 : Fin 1) q) (fun ax => match ax with
    | ⟨0, _⟩ => by
        show 0 = if (1 : Nat) = 1 then 0 else p.val
        rw [if_pos rfl]
    | ⟨1, _⟩ => by
        show q.val = if N = 1 then 0 else q.val
        split_ifs with h1
        · have := q.isLt; omega
        · rfl)

/-- On the extended reals, the sum over the lane axis of `[A, B, C]` at (p, g) is the sum of the group's `C` entries. -/
theorem lane_sum_apply {φ : FTy} (src : FVec Ideal ⟨3, ![A, B, C]⟩ φ) (acc : BitVec φ.bits)
    (h : (⟨3, ![A, B, C]⟩ : Shape).Reduces [(2 : Fin 3)] ⟨2, ![A, B]⟩) (hφ : FKind.Formats φ)
    (hacc : acc = FKind.add.neutral φ hφ) (p : Fin A) (g : Fin B) :
    multiReduction .add [(2 : Fin 3)] ⟨2, ![A, B]⟩ src acc h hφ hacc (ix2 p g) = ∑ j : Fin C, src (ix3 p g j) :=
  (Ideal.multiReduction_add_single src acc h hφ hacc (ix2 p g)).trans
    (Finset.sum_congr rfl fun k _ => congrArg src (funext fun ax => Fin.ext (by
      match ax with | ⟨0, _⟩ => rfl | ⟨1, _⟩ => rfl | ⟨2, _⟩ => rfl)))

end Cert.LibGroupAxes
-- ==== Proof.LibLayerAxes.lean ====
/-
  The leading axis of a rank-3 array read as layers, at an index.

  An array `[A, B, C]` is `A` layers of `[B, C]` matrices. The two lemmas below read, at one index,

  * a per-layer value `[A, 1, 1]` spread over every entry of its layer, `[A, 1, 1] → [A, B, C]`
    (`spread_layers_apply`): entry (p, g, j) is the value of layer p;
  * a sum over the layer axis of `[A, B, C]` on the extended reals, as the sum over `Fin A` of the entries
    (p, g, j) (`layer_sum_apply`).

  Both are stated over arbitrary extents, with every index built from its coordinates by `ix2` / `ix3`.
-/
import Idealize.ShloMosaic.Lib.Pipeline.Value
import Idealize.ShloMosaic.Lib.ValueIdx
import Idealize.ShloMosaic.PureOps.Ideal.Laws

namespace Cert.LibLayerAxes

open Idealize.ShloMosaic Idealize.ShloMosaic.ValueIdx

variable {α : Type} {A B C : Nat}

/-- `[A, 1, 1] → [A, B, C]` at (p, g, j) is the operand at (p, 0, 0): one value for the whole layer. -/
theorem spread_layers_apply (v : (⟨3, ![A, 1, 1]⟩ : Shape).Idx → α)
    (h : (⟨3, ![A, 1, 1]⟩ : Shape).Broadcasts ⟨3, ![A, B, C]⟩) (p : Fin A) (g : Fin B) (j : Fin C) :
    broadcastTo ⟨3, ![A, B, C]⟩ v h (ix3 p g j) = v (ix3 p (0 : Fin 1) (0 : Fin 1)) :=
  broadcastTo_apply v h (ix3 p g j) (ix3 p (0 : Fin 1) (0 : Fin 1)) (fun ax => match ax with
    | ⟨0, _⟩ => by
        show p.val = if A = 1 then 0 else p.val
        split_ifs with h1
        · have := p.isLt; omega
        · rfl
    | ⟨1, _⟩ => by
        show 0 = if (1 : Nat) = 1 then 0 else g.val
        rw [if_pos rfl]
    | ⟨2, _⟩ => by
        show 0 = if (1 : Nat) = 1 then 0 else j.val
        rw [if_pos rfl])

/-- On the extended reals, the sum over the layer axis of `[A, B, C]` at (g, j) is the sum of the `A` entries (p, g, j). -/
theorem layer_sum_apply {φ : FTy} (src : FVec Ideal ⟨3, ![A, B, C]⟩ φ) (acc : BitVec φ.bits)
    (h : (⟨3, ![A, B, C]⟩ : Shape).Reduces [(0 : Fin 3)] ⟨2, ![B, C]⟩) (hφ : FKind.Formats φ)
    (hacc : acc = FKind.add.neutral φ hφ) (g : Fin B) (j : Fin C) :
    multiReduction .add [(0 : Fin 3)] ⟨2, ![B, C]⟩ src acc h hφ hacc (ix2 g j) = ∑ p : Fin A, src (ix3 p g j) :=
  (Ideal.multiReduction_add_single src acc h hφ hacc (ix2 g j)).trans
    (Finset.sum_congr rfl fun k _ => congrArg src (funext fun ax => Fin.ext (by
      match ax with | ⟨0, _⟩ => rfl | ⟨1, _⟩ => rfl | ⟨2, _⟩ => rfl)))

end Cert.LibLayerAxes
-- ==== Proof.NormCombineSpec.lean ====
/-
  The specification: layers normalised row by row, then summed with weights.

  For an array `X : [4, N, 100]` (four layers of `N` rows of 100 features) and weights `a : [4, 1, 1]`, the result
  `[N, 100]` at (r, d) is

      ∑ l, a(l) · X(l, r, d) / max(√(∑ j, X(l, r, j)²), ε)

  on the extended reals: each layer's row divided by its Euclidean norm clamped below by ε, scaled by the
  layer's weight, and the four layers added. An entry depends on row `r` of `X` only, so the result of a block of
  rows is the block of the result (`rows_of_block`).
-/
import Idealize.ShloMosaic.PureOps.Ideal
import Idealize.ShloMosaic.Lib.ValueIdx

noncomputable section

namespace Cert.NormCombine

open Idealize.ShloMosaic Idealize.ShloMosaic.ValueIdx

/-- The clamp ε: the float the programs both spell (the f32 nearest 1e-12), as its exact value. -/
abbrev floorNorm : EReal := Ideal.ofBits .f32 0x2B8CBCCC#32

variable {N : Nat}

/-- Layer `l`'s contribution at (r, d). -/
def term (X : (⟨3, ![4, N, 100]⟩ : Shape).Idx → EReal) (a : (⟨3, ![4, 1, 1]⟩ : Shape).Idx → EReal)
    (l : Fin 4) (r : Fin N) (d : Fin 100) : EReal :=
  a (ix3 l (0 : Fin 1) (0 : Fin 1))
    * Ideal.div (X (ix3 l r d)) (max (Ideal.sqrt (∑ j : Fin 100, X (ix3 l r j) * X (ix3 l r j))) floorNorm)

/-- The result at (r, d), from coordinates. -/
def entry (X : (⟨3, ![4, N, 100]⟩ : Shape).Idx → EReal) (a : (⟨3, ![4, 1, 1]⟩ : Shape).Idx → EReal)
    (r : Fin N) (d : Fin 100) : EReal :=
  ∑ l : Fin 4, term X a l r d

/-- The whole result array. -/
def rows (X : (⟨3, ![4, N, 100]⟩ : Shape).Idx → EReal) (a : (⟨3, ![4, 1, 1]⟩ : Shape).Idx → EReal) :
    (⟨2, ![N, 100]⟩ : Shape).Idx → EReal :=
  fun i => entry X a (i 0) (i 1)

theorem rows_apply (X : (⟨3, ![4, N, 100]⟩ : Shape).Idx → EReal) (a : (⟨3, ![4, 1, 1]⟩ : Shape).Idx → EReal)
    (r : Fin N) (d : Fin 100) : rows X a (ix2 r d) = entry X a r d := rfl

/-- An entry reads one row of each layer: if row `r` of `Y` is row `r'` of `X` in every layer (and the weights
    agree), the two entries are equal. -/
theorem entry_of_row {M : Nat} (X : (⟨3, ![4, N, 100]⟩ : Shape).Idx → EReal) (Y : (⟨3, ![4, M, 100]⟩ : Shape).Idx → EReal)
    (a b : (⟨3, ![4, 1, 1]⟩ : Shape).Idx → EReal) (r' : Fin N) (r : Fin M) (d : Fin 100)
    (hrow : ∀ l j, Y (ix3 l r j) = X (ix3 l r' j)) (hw : ∀ l, b (ix3 l (0 : Fin 1) (0 : Fin 1)) = a (ix3 l (0 : Fin 1) (0 : Fin 1))) :
    entry Y b r d = entry X a r' d := by
  unfold entry term
  refine Finset.sum_congr rfl fun l _ => ?_
  rw [hw l, hrow l d]
  simp only [hrow l]

end Cert.NormCombine

end
-- ==== Proof.KernelIdealStored.lean ====
/-
  The value the body stores, at an index.

  The body squares the loaded [4, 2000, 100] block, sums each row's squares over the features, takes the root,
  clamps it below, divides every entry by its row's clamped norm, scales each layer by its weight and adds the
  four layers. Read at (r, d) on the extended reals this is the specification's entry of the two loaded blocks.
-/
import proofs.«131152_j35192962024015_1_alg».proof.Proof.Gen.KernelIdeal.Skeleton
import proofs.«131152_j35192962024015_1_alg».proof.Proof.LibGroupAxes
import proofs.«131152_j35192962024015_1_alg».proof.Proof.LibLayerAxes
import proofs.«131152_j35192962024015_1_alg».proof.Proof.NormCombineSpec
import Idealize.ShloMosaic.Lib.Pipeline.Value
import Idealize.ShloMosaic.Lib.ValueIdx
import Idealize.ShloMosaic.PureOps.Ideal.Laws

noncomputable section

namespace Cert.KernelIdeal.RowNorm

open Cert.KernelIdeal Cert.KernelIdeal.Gen Idealize.ShloMosaic Idealize.ShloMosaic.ValueIdx

/-- The body's stored value at (r, d) is the specification's entry (r, d) of the loaded layers and weights. -/
theorem stored_apply (x : FVec Ideal S4x2000x100 .f32) (a : FVec Ideal S4x1x1 .f32) (r : Fin 2000) (d : Fin 100) :
    k0_pay1 (F := Ideal) x a (ix2 r d) = NormCombine.entry x a r d := by
  unfold k0_pay1 NormCombine.entry NormCombine.term
  refine (LibLayerAxes.layer_sum_apply _ _ _ _ _ r d).trans ?_
  refine Finset.sum_congr rfl fun l _ => ?_
  -- the weight spread over its layer, times the entry over its row's clamped norm
  refine congrArg₂ (· * ·) (LibLayerAxes.spread_layers_apply a _ l r d) ?_
  refine congrArg₂ Ideal.div (congrFun (shapeCast_self x _) _) ?_
  -- the clamped norm, kept on a unit axis and spread over the row
  refine (LibGroupAxes.spread_lanes_apply _ _ l r d).trans ?_
  refine congrArg₂ max ?_ rfl
  refine congrArg Ideal.sqrt ?_
  refine (LibGroupAxes.keep_apply _ _ l r).trans ?_
  refine (LibGroupAxes.lane_sum_apply _ _ _ _ _ l r).trans ?_
  refine Finset.sum_congr rfl fun j _ => ?_
  exact congrArg₂ (· * ·) (congrFun (shapeCast_self x _) _) (congrFun (shapeCast_self x _) _)

end Cert.KernelIdeal.RowNorm

end
-- ==== Proof.KernelIdealValue.lean ====
/-
  The idealized kernel's result array, as one function of the arrays the kernel finds at entry.

  At grid point `t` the kernel reads rows 2000·t … 2000·t + 1999 of every layer of the stacked array and the four
  weights, and writes back rows 2000·t … 2000·t + 1999 of the result. The stored value at (r, d) is the
  specification's entry of the loaded blocks, and an entry reads one row of each layer, so the block written back
  at `t` is block `t` of the specification applied to the WHOLE stacked array. The 25 blocks tile the 50000 rows
  (row `i` is in block `i / 2000`), so after the run the result array is the specification of the stacked array
  and the weights.
-/
import proofs.«131152_j35192962024015_1_alg».proof.Proof.KernelIdealRegion
import proofs.«131152_j35192962024015_1_alg».proof.Proof.KernelIdealStored
import Idealize.ShloMosaic.Lib.Pipeline.Value

set_option maxRecDepth 16384

noncomputable section

namespace Cert.KernelIdeal.RowNorm

open Cert.KernelIdeal Cert.KernelIdeal.Gen Cert.KernelIdeal.Region
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The block indices at point `t`: the stacked array's block moves along the rows with `t`, the weights' block never
    moves, the result's block moves along the rows with `t`. Decided over the 25 points. -/
theorem index_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0)

/-- The stacked array's block at `t` read at (l, r, j) is the array at (l, 2000·t + r, j). -/
theorem layers_block_read (c : Dev nD) (X : Buf (Elt Ideal) ((c : Thread nD τ).loc main_v43)) (t : Fin cfg0.N)
    (l : Fin 4) (r : Fin 2000) (j : Fin 100) (r' : Fin 50000) (hr : r'.val = 2000 * t.val + r.val) :
    (((cfg0.win 0).blk t).view.read (Elt Ideal) X : Vec Ideal S4x2000x100 .f32) (ix3 l r j)
      = (X : S4x50000x100.Idx → EReal) (ix3 l r' j) := by
  obtain ⟨e0, e1, e2, -⟩ := index_facts t
  rw [View.read_apply]
  show (X : S4x50000x100.Idx → EReal) _ = (X : S4x50000x100.Idx → EReal) _
  refine congrArg _ (funext fun a => Fin.ext ?_)
  match a with
  | ⟨0, _⟩ => show win0_0.index t (0 : Fin 3) * 4 + 1 * l.val = l.val; rw [e0]; omega
  | ⟨1, _⟩ => show win0_0.index t (1 : Fin 3) * 2000 + 1 * r.val = r'.val; rw [e1, hr]; omega
  | ⟨2, _⟩ => show win0_0.index t (2 : Fin 3) * 100 + 1 * j.val = j.val; rw [e2]; omega

/-- The weights' block at any point read at (l, 0, 0) is the weights array at (l, 0, 0). -/
theorem weights_block_read (c : Dev nD) (a : Buf (Elt Ideal) ((c : Thread nD τ).loc main_arg4)) (t : Fin cfg0.N) (l : Fin 4) :
    (((cfg0.win 1).blk t).view.read (Elt Ideal) a : Vec Ideal S4x1x1 .f32) (ix3 l (0 : Fin 1) (0 : Fin 1))
      = (a : S4x1x1.Idx → EReal) (ix3 l (0 : Fin 1) (0 : Fin 1)) := by
  obtain ⟨-, -, -, f0, f1, f2, -⟩ := index_facts t
  rw [View.read_apply]
  show (a : S4x1x1.Idx → EReal) _ = (a : S4x1x1.Idx → EReal) _
  refine congrArg _ (funext fun ax => Fin.ext ?_)
  match ax with
  | ⟨0, _⟩ => show win0_1.index t (0 : Fin 3) * 4 + 1 * l.val = l.val; rw [f0]; omega
  | ⟨1, _⟩ => show win0_1.index t (1 : Fin 3) * 1 + 1 * 0 = 0; rw [f1]
  | ⟨2, _⟩ => show win0_1.index t (2 : Fin 3) * 1 + 1 * 0 = 0; rw [f2]

/-- The result of the specification on the arrays found at entry: what the result array ends holding. -/
abbrev resultOf (c : Dev nD) : S50000x100.Idx → EReal :=
  NormCombine.rows (atEntry m c main_v43 : S4x50000x100.Idx → EReal) (atEntry m c main_arg4 : S4x1x1.Idx → EReal)

/-- What point `t` writes back is block `t` of `resultOf`. -/
theorem written_back (c : Dev nD) (t : Fin cfg0.N) :
    (pdat m 0 c).flushed 2 t = ((cfg0.win 2).blk t).view.read (Elt Ideal) (resultOf m c) := by
  show (cfg0.win 2).cut (grid0.coords t) ((pdat m 0 c).after 2 t) = _
  rw [after_out]
  unfold combined
  rw [View.canon_unit_zero zeros2]
  simp only [View.ld_unit_zero (S := S4x2000x100) zeros3, View.ld_unit_zero (S := S4x1x1) zeros3]
  funext y
  obtain ⟨r, d, rfl⟩ : ∃ (r : Fin 2000) (d : Fin 100), y = ix2 r d := ⟨y 0, y 1, eq_ix2 y⟩
  obtain ⟨-, -, -, -, -, -, g0, g1⟩ := index_facts t
  have hN : cfg0.N = 25 := N_0
  have ht : t.val < 25 := by have := t.isLt; omega
  rw [View.read_apply]
  have hemb : ((cfg0.win 2).blk t).view.emb (ix2 r d) = ix2 (⟨2000 * t.val + r.val, by omega⟩ : Fin 50000) d := by
    funext a; apply Fin.ext
    match a with
    | ⟨0, _⟩ => show win0_2.index t (0 : Fin 2) * 2000 + 1 * r.val = 2000 * t.val + r.val; rw [g0]; omega
    | ⟨1, _⟩ => show win0_2.index t (1 : Fin 2) * 100 + 1 * d.val = d.val; rw [g1]; omega
  refine Eq.trans ?_ (congrArg (resultOf m c) hemb.symm)
  show k0_pay1 (F := Ideal) (blockAt m c 0 t) (blockAt m c 1 t) (ix2 r d) = NormCombine.entry _ _ _ d
  refine (stored_apply (blockAt m c 0 t) (blockAt m c 1 t) r d).trans ?_
  exact NormCombine.entry_of_row _ _ _ _ _ r d
    (fun l j => layers_block_read c (atEntry m c main_v43) t l r j _ rfl)
    (fun l => weights_block_read c (atEntry m c main_arg4) t l)

/-- A row of the result array lies in point `t`'s block iff it is one of rows 2000·t … 2000·t + 1999. -/
theorem mem_block (t : Fin cfg0.N) (i : S50000x100.Idx) :
    i ∈ ((cfg0.win 2).blk t).view.set ↔ ∀ a : Fin 2, win0_2.index t a * S2000x100.size a ≤ (i a).val ∧ (i a).val < win0_2.index t a * S2000x100.size a + S2000x100.size a := by
  show i ∈ ((View.whole main_v44).slice (win0_2.rect t)).set ↔ _
  rw [View.set_slice_whole, Rect.mem_set_unit]
  exact Iff.rfl

/-- Every index of the result array is written back by some point: row `i` by point `i / 2000`. -/
theorem covered (i : S50000x100.Idx) :
    ∃ t : Fin cfg0.N, (cfg0.win 2).flush t = true ∧ i ∈ ((cfg0.win 2).blk t).view.set := by
  have hi0 : (i 0).val < 50000 := (i 0).isLt
  have hi1 : (i 1).val < 100 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, g0, g1⟩ := index_facts t
  refine ⟨t, flush0_2 t, ?_⟩
  rw [mem_block]
  intro a
  match a with
  | ⟨0, _⟩ =>
    show win0_2.index t (0 : Fin 2) * 2000 ≤ (i 0).val ∧ (i 0).val < win0_2.index t (0 : Fin 2) * 2000 + 2000
    rw [g0, ht]; omega
  | ⟨1, _⟩ =>
    show win0_2.index t (1 : Fin 2) * 100 ≤ (i 1).val ∧ (i 1).val < win0_2.index t (1 : Fin 2) * 100 + 100
    rw [g1]; omega

/-- After the run the result array holds `resultOf`. -/
theorem result_array (c : Dev nD) : (pdat m 0 c).arrAt 2 cfg0.N = resultOf m c :=
  (pdat m 0 c).arrAt_eq_of_cover 2 (resultOf m c) (fun t _ => written_back m c t) covered

/-- The run, read: every weakly fair execution terminates with the result array at the specification of the
    stacked array and the weights as found at entry, and the five arguments as launched. -/
theorem run : θ_run defs (onTc (τ := τ) (main (F := Ideal))) ⟨m, fun _ => 0, ρ⟩ fun r => ∀ c : Dev nD,
      r.2.mem ((c.tc : Thread nD τ).loc main_v44) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).1 2).trans (result_array m c),
     ((h c).2 main_arg0 (Pipeline.mem_restRefs_of main_arg0 (by decide) (by decide))).trans (atEntry_arg0 m c),
     ((h c).2 main_arg1 (Pipeline.mem_restRefs_of main_arg1 (by decide) (by decide))).trans (atEntry_arg1 m c),
     ((h c).2 main_arg2 (Pipeline.mem_restRefs_of main_arg2 (by decide) (by decide))).trans (atEntry_arg2 m c),
     ((h c).2 main_arg3 (Pipeline.mem_restRefs_of main_arg3 (by decide) (by decide))).trans (atEntry_arg3 m c),
     ((h c).1 1).trans (((pdat m 0 c).arrAt_in 1 rfl _).trans ((pdat_A m c 1).trans (atEntry_arg4 m c)))⟩)
    (run_main m ρ)

end Cert.KernelIdeal.RowNorm

end
-- ==== Proof.KernelIdealStacked.lean ====
/-
  The stacked array the kernel finds at entry.

  Before the kernel is launched, @main gathers, scales and scatter-adds the embedding three times along the edge
  lists and stacks the embedding and the three propagated arrays into one [4, 50000, 100] array. The reference
  program performs the same operations, in the same order, on the same arguments; so the stacked array the kernel
  finds is the reference's stacked stage of the launch arguments, operation for operation.
-/
import proofs.«131152_j35192962024015_1_alg».proof.Proof.KernelIdealRegion
import proofs.«131152_j35192962024015_1_alg».proof.Proof.Gen.ReferenceIdeal.Read
import Idealize.ShloMosaic.Lib.StableHlo.Run

noncomputable section

namespace Cert.KernelIdeal.RowNorm

open Cert.KernelIdeal Cert.KernelIdeal.Gen Cert.KernelIdeal.Region
open Idealize.ShloMosaic Idealize.ShloMosaic.TcCoe Idealize.SL.Sem Idealize.ShloMosaic.StableHlo

variable (m : (ℓ : Loc nD τ sig) → Buf (Elt Ideal) ℓ)

/-- Layer 0 of the stack is the embedding itself, given a leading unit axis. -/
theorem layer0_at_entry (c : Dev nD) :
    (atEntry m c main_v39 : S1x50000x100.Idx → EReal)
      = Cert.ReferenceIdeal.Read.val_main_v39 (F := Ideal) (m ((c.tc : Thread nD τ).loc main_arg3)) := by
  dsimp only [atEntry, hostOps0]
  after_results_simp
  rfl

set_option maxHeartbeats 4000000 in
/-- Layer 1: one round of propagation of the embedding. -/
theorem layer1_at_entry (c : Dev nD) :
    (atEntry m c main_v40 : S1x50000x100.Idx → EReal)
      = Cert.ReferenceIdeal.Read.val_main_v40 (F := Ideal)
          (m ((c.tc : Thread nD τ).loc main_arg0)) (m ((c.tc : Thread nD τ).loc main_arg1))
          (m ((c.tc : Thread nD τ).loc main_arg2)) (m ((c.tc : Thread nD τ).loc main_arg3)) := by
  dsimp only [atEntry, hostOps0]
  after_results_simp
  rfl

set_option maxHeartbeats 4000000 in
/-- Layer 2: two rounds. -/
theorem layer2_at_entry (c : Dev nD) :
    (atEntry m c main_v41 : S1x50000x100.Idx → EReal)
      = Cert.ReferenceIdeal.Read.val_main_v41 (F := Ideal)
          (m ((c.tc : Thread nD τ).loc main_arg0)) (m ((c.tc : Thread nD τ).loc main_arg1))
          (m ((c.tc : Thread nD τ).loc main_arg2)) (m ((c.tc : Thread nD τ).loc main_arg3)) := by
  dsimp only [atEntry, hostOps0]
  after_results_simp
  rfl

set_option maxHeartbeats 4000000 in
/-- Layer 3: three rounds. -/
theorem layer3_at_entry (c : Dev nD) :
    (atEntry m c main_v42 : S1x50000x100.Idx → EReal)
      = Cert.ReferenceIdeal.Read.val_main_v42 (F := Ideal)
          (m ((c.tc : Thread nD τ).loc main_arg0)) (m ((c.tc : Thread nD τ).loc main_arg1))
          (m ((c.tc : Thread nD τ).loc main_arg2)) (m ((c.tc : Thread nD τ).loc main_arg3)) := by
  dsimp only [atEntry, hostOps0]
  after_results_simp
  rfl

set_option maxHeartbeats 4000000 in
/-- The last host operation joins the four layers along a new leading axis, and it writes none of them: the
    stacked array at entry is the four layer arrays at entry, joined. -/
theorem stacked_of_layers (c : Dev nD) :
    (atEntry m c main_v43 : S4x50000x100.Idx → EReal)
      = concatenate S4x50000x100 0
          [⟨S1x50000x100, atEntry m c main_v39⟩, ⟨S1x50000x100, atEntry m c main_v40⟩,
           ⟨S1x50000x100, atEntry m c main_v41⟩, ⟨S1x50000x100, atEntry m c main_v42⟩]
          Facts₀.concatenates_S1x50000x100_S1x50000x100_S1x50000x100_S1x50000x100_S4x50000x100_d0 := by
  dsimp only [atEntry, hostOps0]
  simp only [after_cons, after_nil]
  rw [nary4_result]
  rw [nary_result_ne _ _ _ _ _ _ (by decide : main_v39 ≠ main_v43),
    nary_result_ne _ _ _ _ _ _ (by decide : main_v40 ≠ main_v43),
    nary_result_ne _ _ _ _ _ _ (by decide : main_v41 ≠ main_v43),
    nary_result_ne _ _ _ _ _ _ (by decide : main_v42 ≠ main_v43)]
  rfl

/-- The stacked array at entry is the reference's stacked stage of the four arguments it reads. -/
theorem stacked_at_entry (c : Dev nD) :
    (atEntry m c main_v43 : S4x50000x100.Idx → EReal)
      = Cert.ReferenceIdeal.Read.val_main_v43 (F := Ideal)
          (m ((c.tc : Thread nD τ).loc main_arg0)) (m ((c.tc : Thread nD τ).loc main_arg1))
          (m ((c.tc : Thread nD τ).loc main_arg2)) (m ((c.tc : Thread nD τ).loc main_arg3)) := by
  rw [stacked_of_layers, layer0_at_entry, layer1_at_entry, layer2_at_entry, layer3_at_entry]
  rfl

end Cert.KernelIdeal.RowNorm

end
-- ==== Proof.ReferenceRows.lean ====
/-
  The reference's result, read as the specification.

  After the shared propagation the reference squares the stacked array, sums each row's squares over the
  features from zero, takes the root, clamps it below by ε, divides the stacked array by the clamped norms spread
  back over the rows, scales each layer by its weight and sums the four layers from zero. Read at (r, d) on the
  extended reals, with the two zero starts dropped, this is the specification's entry of the stacked array.
-/
import proofs.«131152_j35192962024015_1_alg».proof.Proof.Gen.ReferenceIdeal.Read
import proofs.«131152_j35192962024015_1_alg».proof.Proof.NormCombineSpec
import Idealize.ShloMosaic.Lib.ValueIdx
import Idealize.ShloMosaic.PureOps.Ideal.Laws

noncomputable section

namespace Cert.ReferenceIdeal.RowNorm

open Cert.ReferenceIdeal Cert.ReferenceIdeal.Read Idealize.ShloMosaic Idealize.ShloMosaic.ValueIdx

/-- The reference's last stage is the specification applied to its stacked stage and the weights. -/
theorem result_is_rows (x0 x1 : (⟨S800000, .i32⟩ : BufTy).Contents (Elt Ideal)) (x2 : (⟨S800000, .f32⟩ : BufTy).Contents (Elt Ideal))
    (x3 : (⟨S50000x100, .f32⟩ : BufTy).Contents (Elt Ideal)) (x4 : (⟨S4x1x1, .f32⟩ : BufTy).Contents (Elt Ideal)) :
    val_main_v54 (F := Ideal) x0 x1 x2 x3 x4
      = NormCombine.rows (val_main_v43 (F := Ideal) x0 x1 x2 x3 : S4x50000x100.Idx → EReal) (x4 : S4x1x1.Idx → EReal) := by
  funext i
  obtain ⟨r, d, rfl⟩ : ∃ (r : Fin 50000) (d : Fin 100), i = ix2 r d := ⟨i 0, i 1, eq_ix2 i⟩
  have h54 : ∀ k : Fin 4, idx_main_v54 (ix2 r d) k = ix3 k r d := fun k =>
    funext fun a => Fin.ext (by match a with | ⟨0, _⟩ => rfl | ⟨1, _⟩ => rfl | ⟨2, _⟩ => rfl)
  have h52 : ∀ k : Fin 4, idx_main_v52 (ix3 k r d) = ix3 k (0 : Fin 1) (0 : Fin 1) := fun k =>
    funext fun a => Fin.ext (by match a with | ⟨0, _⟩ => rfl | ⟨1, _⟩ => rfl | ⟨2, _⟩ => rfl)
  have h45 : ∀ (k : Fin 4) (j : Fin 100), idx_main_v45 (idx_main_v46 (idx_main_v50 (ix3 k r d))) j = ix3 k r j := fun k j =>
    funext fun a => Fin.ext (by match a with | ⟨0, _⟩ => rfl | ⟨1, _⟩ => rfl | ⟨2, _⟩ => rfl)
  rw [val_main_v54_apply, NormCombine.rows_apply]
  unfold NormCombine.entry NormCombine.term
  simp only [val_main_v53_apply, val_main_v52_apply, val_main_v51_apply, val_main_v50_apply, val_main_v49_apply,
    val_main_v48_apply, val_main_v47_apply, val_main_v46_apply, val_main_v45_apply, val_main_v44_apply,
    val_main_cst_7_apply, val_main_cst_8_apply, val_main_cst_9_apply, h54, h52, h45,
    Ideal.mulf_def, Ideal.hostDivf_def, Ideal.maximumf_def, Ideal.hostUnary_sqrt_def, Ideal.ofBits_def,
    Ideal.ofBits_zero_f32, zero_add]

end Cert.ReferenceIdeal.RowNorm

end
-- ==== Proof.lean ====
/-
  The certificate: a weighted sum of row-normalised layers, computed by a pipelined kernel after three rounds of
  sparse propagation on the host, against the same computation written in plain array operations.

  Both programs first propagate the embedding along the edges three times (gather the source rows, scale by the edge
  value, scatter-add into the destination rows) and stack the embedding and the three propagated arrays into
  `X : [4, 50000, 100]`; these host operations are the same in both, on the same arguments. The kernel then walks
  the 50000 rows in 25 blocks of 2000; the reference works on the whole array at once. Either way the result at
  (r, d) is `∑ l, a(l) · X(l, r, d) / max(√(∑ j, X(l, r, j)²), ε)` on the extended reals, because an entry reads
  one row of each layer and the blocks tile the rows: the two sides differ only in the tiling and in two sums
  started from an explicit zero.

  The three frames: each kernel program runs to its end under the pipeline's launch rule with the body's triple
  (`Region.frame`), no host operation writing an argument; the reference's frame is its run with the result dropped.
  The idealization rewrote nothing, so `preserves` is trivial. No law used here needs the inputs finite, so the
  precondition is never opened.
-/
import proofs.«131152_j35192962024015_1_alg».proof.Defs
import proofs.«131152_j35192962024015_1_alg».proof.Proof.Gen.Kernel
import proofs.«131152_j35192962024015_1_alg».proof.Proof.Gen.KernelIdeal
import proofs.«131152_j35192962024015_1_alg».proof.Proof.Gen.ReferenceIdeal
import proofs.«131152_j35192962024015_1_alg».proof.Proof.Gen.Pre_finite_inputs
import proofs.«131152_j35192962024015_1_alg».proof.Proof.Gen.ReferenceIdeal.Run
import proofs.«131152_j35192962024015_1_alg».proof.Proof.Gen.ReferenceIdeal.Read
import proofs.«131152_j35192962024015_1_alg».proof.Proof.KernelRegion
import proofs.«131152_j35192962024015_1_alg».proof.Proof.KernelIdealRegion
import proofs.«131152_j35192962024015_1_alg».proof.Proof.KernelIdealValue
import proofs.«131152_j35192962024015_1_alg».proof.Proof.KernelIdealStacked
import proofs.«131152_j35192962024015_1_alg».proof.Proof.ReferenceRows
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Region.frame m ρ

theorem frame_ideal : Cert.frame_KernelIdeal := fun m ρ _ => Cert.KernelIdeal.Region.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the specification of the stacked array of the launch arguments and
    the weights: the kernel's by its 25 write-backs, the reference's by reading its last six stages at an index. -/
theorem algebraic : Cert.algebraic_KernelIdeal_ReferenceIdeal := by
  intro m ρ m' ρ' _ hagree
  refine ⟨fun c => Cert.KernelIdeal.RowNorm.resultOf m c, Cert.KernelIdeal.RowNorm.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, Cert.ReferenceIdeal.RowNorm.result_is_rows,
    (hagree c).1, (hagree c).2.1, (hagree c).2.2.1, (hagree c).2.2.2.1, (hagree c).2.2.2.2]
  show _ = Cert.NormCombine.rows (Cert.KernelIdeal.Region.atEntry m c Cert.KernelIdeal.main_v43)
    (Cert.KernelIdeal.Region.atEntry m c Cert.KernelIdeal.main_arg4)
  rw [Cert.KernelIdeal.RowNorm.stacked_at_entry m c, Cert.KernelIdeal.Region.atEntry_arg4 m c]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
